-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x72 : Shape := ⟨2, ![131072, 72]⟩
abbrev S72x512 : Shape := ⟨2, ![72, 512]⟩
abbrev S1x512 : Shape := ⟨2, ![1, 512]⟩
abbrev S512x128 : Shape := ⟨2, ![512, 128]⟩
abbrev S1x128 : Shape := ⟨2, ![1, 128]⟩
abbrev S_ : Shape := ⟨0, ![]⟩

class Facts : Prop where
  bcast_S_S131072x72 : S_.BroadcastsInDim S131072x72 (![] : Fin 0 → Fin S131072x72.rank)
  reducesTo_S131072x72_S_d0_1 : S131072x72.ReducesTo [0, 1] S_
  h_S_ : 0 < S_.numel
  bcast_S_S72x512 : S_.BroadcastsInDim S72x512 (![] : Fin 0 → Fin S72x512.rank)
  reducesTo_S72x512_S_d0_1 : S72x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S131072x72 .f32) (main_arg1 : FVec F S72x512 .f32) (main_arg2 : FVec F S1x512 .f32) (main_arg3 : FVec F S512x128 .f32) (main_arg4 : FVec F S1x128 .f32) : IVec S_ 1 :=
  let main_v0 : FVec F S131072x72 .f32 := Host.absf main_arg0
  let main_cst : FVec F S_ .f32 := constant S_ .f32 0x7F800000#32
  let main_v1 : FVec F S131072x72 .f32 := broadcastInDim S131072x72 ![] bcast_S_S131072x72 main_cst
  let main_v2 : IVec S131072x72 1 := cmpf .olt main_v0 main_v1
  let main_c : IVec S_ 1 := constantI S_ 1 1#1
  let main_v3 : IVec S_ 1 := (fun x v => Host.reduce IntOp.andi x v reducesTo_S131072x72_S_d0_1 h_S_) main_v2 main_c
  let main_v4 : FVec F S72x512 .f32 := Host.absf main_arg1
  let main_cst_0 : FVec F S_ .f32 := constant S_ .f32 0x7F800000#32
  let main_v5 : FVec F S72x512 .f32 := broadcastInDim S72x512 ![] bcast_S_S72x512 main_cst_0
  let main_v6 : IVec S72x512 1 := cmpf .olt main_v4 main_v5
  let main_c_1 : IVec S_ 1 := constantI S_ 1 1#1
  let main_v7 : IVec S_ 1 := (fun x v => Host.reduce IntOp.andi x v reducesTo_S72x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S131072x72 : Shape := ⟨2, ![131072, 72]⟩
abbrev S72x512 : Shape := ⟨2, ![72, 512]⟩
abbrev S1x512 : Shape := ⟨2, ![1, 512]⟩
abbrev S512x128 : Shape := ⟨2, ![512, 128]⟩
abbrev S1x128 : Shape := ⟨2, ![1, 128]⟩
abbrev S131072x18 : Shape := ⟨2, ![131072, 18]⟩
abbrev S16384x72 : Shape := ⟨2, ![16384, 72]⟩
abbrev S16384x18 : Shape := ⟨2, ![16384, 18]⟩
abbrev S73x512 : Shape := ⟨2, ![73, 512]⟩
abbrev S512x32 : Shape := ⟨2, ![512, 32]⟩
abbrev S1x18 : Shape := ⟨2, ![1, 18]⟩
abbrev S4096x72 : Shape := ⟨2, ![4096, 72]⟩
abbrev S4096x1 : Shape := ⟨2, ![4096, 1]⟩
abbrev S4096x73 : Shape := ⟨2, ![4096, 73]⟩
abbrev S512x4096 : Shape := ⟨2, ![512, 4096]⟩
abbrev S32x4096 : Shape := ⟨2, ![32, 4096]⟩
abbrev S18x4096 : Shape := ⟨2, ![18, 4096]⟩
abbrev S4096x18 : Shape := ⟨2, ![4096, 18]⟩

abbrev nBuf : Space → Nat
  | .hbm => 6
  | .vmem => 8
  | .smem => 0
  | _ => 0

abbrev bufTy : (tb : Table) → Fin (tcTables nBuf tb) → BufTy
  | .hbm, ⟨0, _⟩ => ⟨S131072x72, .f32⟩
  | .hbm, ⟨1, _⟩ => ⟨S72x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S131072x18, .f32⟩
  | .local _ .vmem, ⟨0, _⟩ => ⟨S16384x72, .f32⟩
  | .local _ .vmem, ⟨1, _⟩ => ⟨S16384x72, .f32⟩
  | .local _ .vmem, ⟨2, _⟩ => ⟨S72x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S16384x18, .f32⟩
  | .local _ .vmem, ⟨7, _⟩ => ⟨S16384x18, .f32⟩
  | _, _ => ⟨S131072x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S72x512_S72x512_0_0 : ∀ a, (![0, 0] : Fin 2 → Nat) a + S72x512.size a ≤ S72x512.size a
  h_S72x512 : 0 < S72x512.numel
  inb_S1x512_S1x512_0_0 : ∀ a, (![0, 0] : Fin 2 → Nat) a + S1x512.size a ≤ S1x512.size a
  h_S1x512 : 0 < S1x512.numel
  concatenates_S72x512_S1x512_S73x512_d0 : Shape.Concatenates [S72x512, S1x512] S73x512 0
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  slices_S512x128_o0_0_S512x32 : S512x128.Slices ![0, 0] S512x32
  inb_S1x128_S1x18_0_0 : ∀ a, (![0, 0] : Fin 2 → Nat) a + S1x18.size a ≤ S1x128.size a
  h_S1x18 : 0 < S1x18.numel
  inb_S16384x72_S4096x72_0_0 : ∀ a, (![0, 0] : Fin 2 → Nat) a + S4096x72.size a ≤ S16384x72.size a
  h_S4096x72 : 0 < S4096x72.numel
  concatenates_S4096x72_S4096x1_S4096x73_d1 : Shape.Concatenates [S4096x72, S4096x1] S4096x73 1
  slices_S32x4096_o0_0_S18x4096 : S32x4096.Slices ![0, 0] S18x4096
  transposes_S18x4096_p1_0_S4096x18 : S18x4096.Transposes [1, 0] S4096x18
  broadcasts_S1x18_S4096x18 : S1x18.Broadcasts S4096x18
  inb_S16384x18_S4096x18_0_0 : ∀ a, (![0, 0] : Fin 2 → Nat) a + S4096x18.size a ≤ S16384x18.size a
  h_S4096x18 : 0 < S4096x18.numel
  inb_S16384x72_S4096x72_4096_0 : ∀ a, (![4096, 0] : Fin 2 → Nat) a + S4096x72.size a ≤ S16384x72.size a
  inb_S16384x18_S4096x18_4096_0 : ∀ a, (![4096, 0] : Fin 2 → Nat) a + S4096x18.size a ≤ S16384x18.size a
  inb_S16384x72_S4096x72_8192_0 : ∀ a, (![8192, 0] : Fin 2 → Nat) a + S4096x72.size a ≤ S16384x72.size a
  inb_S16384x18_S4096x18_8192_0 : ∀ a, (![8192, 0] : Fin 2 → Nat) a + S4096x18.size a ≤ S16384x18.size a
  inb_S16384x72_S4096x72_12288_0 : ∀ a, (![12288, 0] : Fin 2 → Nat) a + S4096x72.size a ≤ S16384x72.size a
  inb_S16384x18_S4096x18_12288_0 : ∀ a, (![12288, 0] : Fin 2 → Nat) a + S4096x18.size a ≤ S16384x18.size a
  dot_S73x512_S4096x73_S512x4096_0_1_1_0_n_n_wf : DotDims.WF S73x512 S4096x73 S512x4096 [0] [1] [1] [0] [] []
  dot_S512x32_S512x4096_S32x4096_0_0_1_1_n_n_wf : DotDims.WF S512x32 S512x4096 S32x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x72.size a ≤ S131072x72.size a
  hwx0_0 : ∀ i : grid0.Coords, EltTy.bits .f32 = 32 ∨ (Rect.block (s := S131072x72) S16384x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x512.size a ≤ S72x512.size a
  hwx0_1 : ∀ i : grid0.Coords, EltTy.bits .f32 = 32 ∨ (Rect.block (s := S72x512) S72x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16384x18.size a ≤ S131072x18.size a
  hwx0_5 : ∀ i : grid0.Coords, EltTy.bits .f32 = 32 ∨ (Rect.block (s := S131072x18) S16384x18.size (cc0_transform_5 i) (hinb0_5 i)).WholeWords (EltTy.packing .f32)

variable [Facts₀]

def dot_S73x512_S4096x73_S512x4096_0_1_1_0_n_n : DotDims S73x512 S4096x73 S512x4096 where
  lhsContracting := [0]
  rhsContracting := [1]
  lhsNonContracting := [1]
  rhsNonContracting := [0]
  lhsBatch := []
  rhsBatch := []
  wf := dot_S73x512_S4096x73_S512x4096_0_1_1_0_n_n_wf
def dot_S512x32_S512x4096_S32x4096_0_0_1_1_n_n : DotDims S512x32 S512x4096 S32x4096 where
  lhsContracting := [0]
  rhsContracting := [0]
  lhsNonContracting := [1]
  rhsNonContracting := [1]
  lhsBatch := []
  rhsBatch := []
  wf := dot_S512x32_S512x4096_S32x4096_0_0_1_1_n_n_wf

abbrev win0_0 : Pipeline.Window sig grid0 :=
  Pipeline.Window.ofSpec (Memref.whole main_arg0) S16384x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S72x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16384x18.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x72 : Shape := ⟨2, ![131072, 72]⟩
abbrev S72x512 : Shape := ⟨2, ![72, 512]⟩
abbrev S1x512 : Shape := ⟨2, ![1, 512]⟩
abbrev S512x128 : Shape := ⟨2, ![512, 128]⟩
abbrev S1x128 : Shape := ⟨2, ![1, 128]⟩
abbrev S131072x18 : Shape := ⟨2, ![131072, 18]⟩
abbrev S4096x72 : Shape := ⟨2, ![4096, 72]⟩
abbrev S4096x18 : Shape := ⟨2, ![4096, 18]⟩
abbrev S4096x512 : Shape := ⟨2, ![4096, 512]⟩
abbrev S4096x128 : Shape := ⟨2, ![4096, 128]⟩

abbrev nBuf : Space → Nat
  | .hbm => 6
  | .vmem => 8
  | .smem => 0
  | _ => 0

abbrev bufTy : (tb : Table) → Fin (tcTables nBuf tb) → BufTy
  | .hbm, ⟨0, _⟩ => ⟨S131072x72, .f32⟩
  | .hbm, ⟨1, _⟩ => ⟨S72x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S131072x18, .f32⟩
  | .local _ .vmem, ⟨0, _⟩ => ⟨S4096x72, .f32⟩
  | .local _ .vmem, ⟨1, _⟩ => ⟨S4096x72, .f32⟩
  | .local _ .vmem, ⟨2, _⟩ => ⟨S72x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S4096x18, .f32⟩
  | .local _ .vmem, ⟨7, _⟩ => ⟨S4096x18, .f32⟩
  | _, _ => ⟨S131072x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x18 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4096x72_S4096x72_0_0 : ∀ a, (![0, 0] : Fin 2 → Nat) a + S4096x72.size a ≤ S4096x72.size a
  h_S4096x72 : 0 < S4096x72.numel
  inb_S72x512_S72x512_0_0 : ∀ a, (![0, 0] : Fin 2 → Nat) a + S72x512.size a ≤ S72x512.size a
  h_S72x512 : 0 < S72x512.numel
  inb_S1x512_S1x512_0_0 : ∀ a, (![0, 0] : Fin 2 → Nat) a + S1x512.size a ≤ S1x512.size a
  h_S1x512 : 0 < S1x512.numel
  broadcasts_S1x512_S4096x512 : S1x512.Broadcasts S4096x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  slices_S4096x128_o0_0_S4096x18 : S4096x128.Slices ![0, 0] S4096x18
  inb_S4096x18_S4096x18_0_0 : ∀ a, (![0, 0] : Fin 2 → Nat) a + S4096x18.size a ≤ S4096x18.size a
  h_S4096x18 : 0 < S4096x18.numel
  dot_S4096x72_S72x512_S4096x512_1_0_0_1_n_n_wf : DotDims.WF S4096x72 S72x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x72.size a ≤ S131072x72.size a
  hwx0_0 : ∀ i : grid0.Coords, EltTy.bits .f32 = 32 ∨ (Rect.block (s := S131072x72) S4096x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S72x512.size a ≤ S72x512.size a
  hwx0_1 : ∀ i : grid0.Coords, EltTy.bits .f32 = 32 ∨ (Rect.block (s := S72x512) S72x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x18.size a ≤ S131072x18.size a
  hwx0_5 : ∀ i : grid0.Coords, EltTy.bits .f32 = 32 ∨ (Rect.block (s := S131072x18) S4096x18.size (cc0_transform_5 i) (hinb0_5 i)).WholeWords (EltTy.packing .f32)

variable [Facts₀]

def dot_S4096x72_S72x512_S4096x512_1_0_0_1_n_n : DotDims S4096x72 S72x512 S4096x512 where
  lhsContracting := [1]
  rhsContracting := [0]
  lhsNonContracting := [0]
  rhsNonContracting := [1]
  lhsBatch := []
  rhsBatch := []
  wf := dot_S4096x72_S72x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S72x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x18.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.LibOnesLane.lean ====
/-
  GENERAL LEMMA: a bias folded into a contraction through an appended coordinate that holds the number one.

  A sum over K + 1 coordinates of W k * X k, where the last coordinate of X is 1, is the sum over the first K coordinates
  of X k * W k plus the last coordinate of W: the affine map x ↦ x·W' + b written as one product of the row (x, 1) with
  the matrix W' stacked on the row b. On the extended reals only commutativity of the product, 1 as its unit and the
  splitting of a finite sum at its last term are used: no distributivity, so no finiteness.
-/
import Mathlib.Algebra.BigOperators.Fin
import Mathlib.Data.EReal.Basic

namespace Cert.LibOnesLane

open scoped BigOperators

/-- The sum over K + 1 coordinates with a one in the last place of X. -/
theorem sum_ones_lane {K : ℕ} (W X : Fin (K + 1) → EReal) (hX : X (Fin.last K) = 1) :
    ∑ k : Fin (K + 1), W k * X k = (∑ k : Fin K, X k.castSucc * W k.castSucc) + W (Fin.last K) := by
  rw [Fin.sum_univ_castSucc, hX, mul_one]
  exact congrArg (· + W (Fin.last K)) (Finset.sum_congr rfl fun k _ => EReal.mul_comm _ _)

end Cert.LibOnesLane
-- ==== Proof.MlpEntry.lean ====
/-
  One entry of a two-layer perceptron with a rectifier between the layers, on the extended reals, and the law that
  joins two ways of writing it.

  For a row x of K inputs, a first layer (w1 : K × H, b1 : H) and one column of a second layer (w2 : H, b2), the entry is
      entry = (sum over h of max ((sum over k of x k * w1 k h) + b1 h) z * w2 h) + b2,
  where z is the rectifier's floor (zero in both programs; it is never evaluated, so it stays a parameter).

  The second writing folds the first bias into the contraction — the row is (x, 1) and the matrix is w1 stacked on b1 —
  and puts the second layer's factor on the left: sum over h of w2 h * max (sum over k' of W k' h * X k') z, plus b2.
  The two are equal by commutativity of the product and by splitting the longer sum at its last term.
-/
import proofs.«138202_g2000000962606390_pallasbulk_212_33_alg».proof.Proof.LibOnesLane

noncomputable section

namespace Cert.Mlp

open scoped BigOperators

/-- One output entry: the row x through the first layer, the rectifier at floor z, and one column of the second layer. -/
def entry {K H : ℕ} (z : EReal) (x : Fin K → EReal) (w1 : Fin K → Fin H → EReal) (b1 : Fin H → EReal)
    (w2 : Fin H → EReal) (b2 : EReal) : EReal :=
  (∑ h : Fin H, max ((∑ k : Fin K, x k * w1 k h) + b1 h) z * w2 h) + b2

/-- The entry depends on its arguments value by value. -/
theorem entry_congr {K H : ℕ} (z : EReal) {x x' : Fin K → EReal} {w1 w1' : Fin K → Fin H → EReal} {b1 b1' : Fin H → EReal}
    {w2 w2' : Fin H → EReal} {b2 b2' : EReal} (hx : ∀ k, x k = x' k) (hw1 : ∀ k h, w1 k h = w1' k h)
    (hb1 : ∀ h, b1 h = b1' h) (hw2 : ∀ h, w2 h = w2' h) (hb2 : b2 = b2') :
    entry z x w1 b1 w2 b2 = entry z x' w1' b1' w2' b2' := by
  have e1 : x = x' := funext hx
  have e2 : w1 = w1' := funext fun k => funext (hw1 k)
  have e3 : b1 = b1' := funext hb1
  have e4 : w2 = w2' := funext hw2
  rw [e1, e2, e3, e4, hb2]

/-- The folded writing: the bias enters through a last coordinate that is 1 in the row and b1 in the matrix, and the
    second layer's factor stands on the left. -/
theorem entry_of_folded {K H : ℕ} (z : EReal) (x : Fin K → EReal) (w1 : Fin K → Fin H → EReal) (b1 : Fin H → EReal)
    (w2 : Fin H → EReal) (b2 : EReal) (W : Fin (K + 1) → Fin H → EReal) (X : Fin (K + 1) → EReal)
    (hW : ∀ k h, W k.castSucc h = w1 k h) (hWl : ∀ h, W (Fin.last K) h = b1 h)
    (hX : ∀ k, X k.castSucc = x k) (hXl : X (Fin.last K) = 1) :
    (∑ h : Fin H, w2 h * max (∑ k : Fin (K + 1), W k h * X k) z) + b2 = entry z x w1 b1 w2 b2 := by
  unfold entry
  refine congrArg (· + b2) (Finset.sum_congr rfl fun h _ => ?_)
  rw [Cert.LibOnesLane.sum_ones_lane (fun k => W k h) X hXl, EReal.mul_comm, hWl]
  refine congrArg (fun s => max (s + b1 h) z * w2 h) (Finset.sum_congr rfl fun k _ => ?_)
  rw [hX, hW]

end Cert.Mlp

end
-- ==== Proof.MlpSpec.lean ====
/-
  The result both programs compute, as one function of the five argument arrays.

  x is [131072, 72], the first layer is w1 : [72, 512] with bias b1 : [1, 512], the second layer is w2 : [512, 128] with
  bias b2 : [1, 128] (its 128 columns are 18 real ones and padding), and the result is [131072, 18]:
      G (r, q) = (sum over h of max ((sum over k of x (r, k) * w1 (k, h)) + b1 (0, h)) 0 * w2 (h, q)) + b2 (0, q),
  the perceptron's entry (Cert.Mlp.entry) of row r of x and column q of the second layer. Row r of the result depends on
  row r of x alone, which is why any tiling of the rows computes the same array.
-/
import proofs.«138202_g2000000962606390_pallasbulk_212_33_alg».proof.Proof.MlpEntry
import Idealize.ShloMosaic.PureOps.Ideal
import Idealize.ShloMosaic.Lib.ValueIdx

noncomputable section

namespace Cert.Mlp

open Idealize.ShloMosaic Idealize.ShloMosaic.ValueIdx
open scoped BigOperators

/-- The rectifier's floor as both programs spell it: the f32 word of zero, never evaluated. -/
abbrev zf : Ideal .f32 := Scalar.ofBits .f32 0x00000000#32

/-- A column of the 18 kept ones, as a column of the 128. -/
abbrev col (q : Fin 18) : Fin 128 := q.castLE (by norm_num)

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- THE RESULT ARRAY as a function of the argument arrays, entry by entry. -/
def G (x : (⟨2, ![131072, 72]⟩ : Shape).Idx → EReal) (w1 : (⟨2, ![72, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) : (⟨2, ![131072, 18]⟩ : Shape).Idx → EReal := fun i =>
  entry zf (fun k => x (ix2 (i 0) k)) (fun k h => w1 (ix2 k h)) (fun h => b1 (ix2 0 h))
    (fun h => w2 (ix2 h (col (i 1)))) (b2 (ix2 0 (col (i 1))))

/-- The result at an index whose coordinates are the numbers r and q. -/
theorem G_at (x : (⟨2, ![131072, 72]⟩ : Shape).Idx → EReal) (w1 : (⟨2, ![72, 512]⟩ : Shape).Idx → EReal)
    (b1 : (⟨2, ![1, 512]⟩ : Shape).Idx → EReal) (w2 : (⟨2, ![512, 128]⟩ : Shape).Idx → EReal)
    (b2 : (⟨2, ![1, 128]⟩ : Shape).Idx → EReal) (i : (⟨2, ![131072, 18]⟩ : Shape).Idx) (r : Fin 131072) (q : Fin 18)
    (h0 : (i 0).val = r.val) (h1 : (i 1).val = q.val) :
    G x w1 b1 w2 b2 i = entry zf (fun k => x (ix2 r k)) (fun k h => w1 (ix2 k h)) (fun h => b1 (ix2 0 h))
      (fun h => w2 (ix2 h (col q))) (b2 (ix2 0 (col q))) := by
  have e : i = ix2 r q := idx2_ext _ _ h0 h1
  subst e
  rfl

end Cert.Mlp

end
-- ==== Proof.KerPayload.lean ====
/-
  The kernel's chunk, entry by entry.

  The kernel works on chunks of 4096 rows of x and computes each chunk transposed. It appends a column of ones to the
  chunk (4096 × 73) and the row b1 to w1 (73 × 512), so that the first layer with its bias is ONE product,
  hT (h, p) = sum over k' of W (k', h) * X (p, k'); it rectifies hT; it multiplies the first 32 columns of w2, transposed,
  with hT, qT (a, p) = sum over h of w2 (h, a) * max (hT (h, p)) 0; and it stores the first 18 rows of qT, transposed
  back, plus b2 laid along the rows. Read at row p and column q of the chunk this is the perceptron's entry
  (Cert.Mlp.entry) of row p of the chunk: the appended coordinate carries b1 * 1 = b1 into the sum, and the products are
  commuted (Cert.Mlp.entry_of_folded). The changes of float format in between are the identity on extended reals.
-/
import proofs.«138202_g2000000962606390_pallasbulk_212_33_alg».proof.Proof.Gen.KernelIdeal.Skeleton
import proofs.«138202_g2000000962606390_pallasbulk_212_33_alg».proof.Proof.Gen.KernelIdeal
import proofs.«138202_g2000000962606390_pallasbulk_212_33_alg».proof.Proof.LibContractAt
import proofs.«138202_g2000000962606390_pallasbulk_212_33_alg».proof.Proof.MlpSpec
import Idealize.ShloMosaic.Lib.ValueIdx
import Idealize.ShloMosaic.Lib.Pipeline.Value
import Idealize.ShloMosaic.PureOps.IdealRules

noncomputable section

namespace Cert.Mlp.Ker

open Idealize.ShloMosaic Idealize.ShloMosaic.ValueIdx Cert.KernelIdeal Cert.KernelIdeal.Gen Cert.Mlp
open scoped BigOperators

/-- The f32 word of one is the number one. -/
theorem one_word : (Scalar.ofBits .f32 0x3F800000#32 : Ideal .f32) = 1 := IdealRules.sign_bit.ideal_onePat .f32

/-- A column of the 18 kept ones, as a column of the 32 the kernel multiplies. -/
abbrev col32 (q : Fin 18) : Fin 32 := q.castLE (by norm_num)

/-- The first product, transposed, at (h, p): the sum over the 73 coordinates of column h of the stacked matrix times
    row p of the extended chunk. -/
theorem mmA {φ₁ φ₂ : FTy} (l : FVec Ideal S73x512 φ₁) (r : FVec Ideal S4096x73 φ₂) (h : Fin 512) (p : Fin 4096) :
    matmul dot_S73x512_S4096x73_S512x4096_0_1_1_0_n_n none l r (constant (F := Ideal) S512x4096 .f32 0x00000000#32) (ix2 h p)
      = ∑ k : Fin 73, l (ix2 k h) * r (ix2 p k) :=
  Cert.LibContractAt.matmul_at dot_S73x512_S4096x73_S512x4096_0_1_1_0_n_n 73 rfl rfl l r (ix2 h p)
    (fun k => ix2 k h) (fun k => ix2 p k) (fun s => idx2_ext _ _ rfl rfl) (fun s => idx2_ext _ _ rfl rfl)

/-- The second product, transposed, at (a, p): the sum over the 512 hidden units. -/
theorem mmB {φ₁ φ₂ : FTy} (l : FVec Ideal S512x32 φ₁) (r : FVec Ideal S512x4096 φ₂) (a : Fin 32) (p : Fin 4096) :
    matmul dot_S512x32_S512x4096_S32x4096_0_0_1_1_n_n none l r (constant (F := Ideal) S32x4096 .f32 0x00000000#32) (ix2 a p)
      = ∑ h : Fin 512, l (ix2 h a) * r (ix2 h p) :=
  Cert.LibContractAt.matmul_at dot_S512x32_S512x4096_S32x4096_0_0_1_1_n_n 512 rfl rfl l r (ix2 a p)
    (fun h => ix2 h a) (fun h => ix2 h p) (fun s => idx2_ext _ _ rfl rfl) (fun s => idx2_ext _ _ rfl rfl)

/-- The extended chunk (x, 1), at one of the 72 coordinates of x … -/
theorem xa_left (xc : Vec Ideal S4096x72 .f32) (o : Ideal .f32) (p : Fin 4096) (k' : Fin 73) (k : Fin 72) (hk : k'.val = k.val) :
    concatenate S4096x73 1 [⟨S4096x72, xc⟩, ⟨S4096x1, broadcast S4096x1 o⟩] concatenates_S4096x72_S4096x1_S4096x73_d1
      (ix2 p k') = xc (ix2 p k) :=
  concatenate_pair_apply_left (1 : Fin 2) xc (broadcast S4096x1 o) concatenates_S4096x72_S4096x1_S4096x73_d1 (ix2 p k') rfl
    (ix2 p k) (fun b => by
      match b with
      | ⟨0, _⟩ => rfl
      | ⟨1, _⟩ => exact hk.symm)

/-- … and at the appended one. -/
theorem xa_last (xc : Vec Ideal S4096x72 .f32) (o : Ideal .f32) (p : Fin 4096) (k' : Fin 73) (hk : k'.val = 72) :
    concatenate S4096x73 1 [⟨S4096x72, xc⟩, ⟨S4096x1, broadcast S4096x1 o⟩] concatenates_S4096x72_S4096x1_S4096x73_d1
      (ix2 p k') = o :=
  concatenate_pair_apply_right (1 : Fin 2) xc (broadcast S4096x1 o) concatenates_S4096x72_S4096x1_S4096x73_d1 (ix2 p k') rfl rfl
    (ix2 p 0) (fun b hb => by
      match b with
      | ⟨0, _⟩ => rfl
      | ⟨1, _⟩ => exact absurd rfl hb) (by show 0 + 72 = k'.val; omega)

/-- The stacked matrix (w1 over b1), at one of the 72 rows of w1 … -/
theorem wa_left (v0 : Vec Ideal S72x512 .f32) (v1 : Vec Ideal S1x512 .f32) (k' : Fin 73) (k : Fin 72) (hk : k'.val = k.val)
    (h : Fin 512) : k0_pay3 v0 v1 (ix2 k' h) = v0 (ix2 k h) := by
  unfold k0_pay3
  exact concatenate_pair_apply_left (0 : Fin 2) v0 v1 concatenates_S72x512_S1x512_S73x512_d0 (ix2 k' h) rfl (ix2 k h) (fun b => by
    match b with
    | ⟨0, _⟩ => exact hk.symm
    | ⟨1, _⟩ => rfl)

/-- … and at the appended row b1. -/
theorem wa_last (v0 : Vec Ideal S72x512 .f32) (v1 : Vec Ideal S1x512 .f32) (k' : Fin 73) (hk : k'.val = 72) (h : Fin 512) :
    k0_pay3 v0 v1 (ix2 k' h) = v1 (ix2 0 h) := by
  unfold k0_pay3
  exact concatenate_pair_apply_right (0 : Fin 2) v0 v1 concatenates_S72x512_S1x512_S73x512_d0 (ix2 k' h) rfl rfl (ix2 0 h)
    (fun b hb => by
      match b with
      | ⟨0, _⟩ => exact absurd rfl hb
      | ⟨1, _⟩ => rfl) (by show 0 + 72 = k'.val; omega)

/-- The first 32 columns of w2. -/
theorem w2_cols (v4 : Vec Ideal S512x128 .f32) (h : Fin 512) (q : Fin 18) :
    k0_pay4 v4 (ix2 h (col32 q)) = v4 (ix2 h (col q)) := by
  unfold k0_pay4
  exact extractStridedSlice_apply ![0, 0] v4 slices_S512x128_o0_0_S512x32 (ix2 h (col32 q)) (ix2 h (col q)) (fun a => by
    match a with
    | ⟨0, _⟩ => show h.val = 0 + h.val; omega
    | ⟨1, _⟩ => show q.val = 0 + q.val; omega)

/-- The chunk's payload at row p and column q, in the kernel's own arrangement. -/
theorem pay_folded (v3 : FVec Ideal S73x512 .bf16) (v5 : FVec Ideal S512x32 .f32) (v6 : Vec Ideal S1x18 .f32)
    (xc : Vec Ideal S4096x72 .f32) (p : Fin 4096) (q : Fin 18) :
    k0_pay1 v3 v5 v6 xc (ix2 p q)
      = (∑ h : Fin 512, v5 (ix2 h (col32 q)) * max (∑ k : Fin 73, v3 (ix2 k h)
          * concatenate S4096x73 1 [⟨S4096x72, xc⟩, ⟨S4096x1, broadcast S4096x1 (Scalar.ofBits .f32 0x3F800000#32 : Ideal .f32)⟩]
              concatenates_S4096x72_S4096x1_S4096x73_d1 (ix2 p k)) zf) + v6 (ix2 0 q) := by
  unfold k0_pay1
  rw [addf_apply]
  refine congrArg₂ (· + ·) ?_ (broadcastTo_apply v6 _ (ix2 p q) (ix2 0 q) (fun a => by
    match a with
    | ⟨0, _⟩ => rfl
    | ⟨1, _⟩ => rfl))
  refine (transpose_apply _ _ _ (ix2 p q) (ix2 q p) (fun b => by
    match b with
    | ⟨0, _⟩ => rfl
    | ⟨1, _⟩ => rfl)).trans ?_
  refine (extractStridedSlice_apply _ _ _ (ix2 q p) (ix2 (col32 q) p) (fun a => by
    match a with
    | ⟨0, _⟩ => show q.val = 0 + q.val; omega
    | ⟨1, _⟩ => show p.val = 0 + p.val; omega)).trans ?_
  rw [mmB]
  refine Finset.sum_congr rfl fun h _ => ?_
  rw [maximumf_apply, broadcast_apply, mmA]
  rfl

/-- THE KERNEL'S PAYLOAD at row p and column q of a chunk: the perceptron's entry of that row. -/
theorem pay_apply (v0 : Vec Ideal S72x512 .f32) (v1 : Vec Ideal S1x512 .f32) (v4 : Vec Ideal S512x128 .f32)
    (v6 : Vec Ideal S1x18 .f32) (xc : Vec Ideal S4096x72 .f32) (p : Fin 4096) (q : Fin 18) :
    k0_pay1 (k0_pay3 v0 v1) (k0_pay4 v4) v6 xc (ix2 p q)
      = Cert.Mlp.entry zf (fun k => xc (ix2 p k)) (fun k h => v0 (ix2 k h)) (fun h => v1 (ix2 0 h))
          (fun h => v4 (ix2 h (col q))) (v6 (ix2 0 q)) := by
  rw [pay_folded]
  refine (congrArg (· + v6 (ix2 0 q)) (Finset.sum_congr rfl fun h _ => by rw [w2_cols])).trans ?_
  exact Cert.Mlp.entry_of_folded (K := 72) zf _ _ _ _ _ (fun k h => k0_pay3 v0 v1 (ix2 k h)) _
    (fun k h => wa_left v0 v1 k.castSucc k rfl h) (fun h => wa_last v0 v1 (Fin.last 72) rfl h)
    (fun k => xa_left xc _ p k.castSucc k rfl) ((xa_last xc _ p (Fin.last 72) rfl).trans one_word)

/-- The four chunks of a block are one function of their loads. -/
theorem pay2_eq (v3 : FVec Ideal S73x512 .bf16) (v5 : FVec Ideal S512x32 .f32) (v6 : Vec Ideal S1x18 .f32)
    (xc : Vec Ideal S4096x72 .f32) : k0_pay2 v3 v5 v6 xc = k0_pay1 v3 v5 v6 xc := rfl
theorem pay5_eq (v0 : Vec Ideal S72x512 .f32) (v1 : Vec Ideal S1x512 .f32) (v4 : Vec Ideal S512x128 .f32)
    (v6 : Vec Ideal S1x18 .f32) (xc : Vec Ideal S4096x72 .f32) :
    k0_pay5 v0 v1 v4 v6 xc = k0_pay1 (k0_pay3 v0 v1) (k0_pay4 v4) v6 xc := rfl
theorem pay6_eq (v0 : Vec Ideal S72x512 .f32) (v1 : Vec Ideal S1x512 .f32) (v4 : Vec Ideal S512x128 .f32)
    (v6 : Vec Ideal S1x18 .f32) (xc : Vec Ideal S4096x72 .f32) :
    k0_pay6 v0 v1 v4 v6 xc = k0_pay1 (k0_pay3 v0 v1) (k0_pay4 v4) v6 xc := rfl

end Cert.Mlp.Ker

end
-- ==== Proof.KerBlock.lean ====
/-
  The kernel's block, entry by entry.

  At each grid point the kernel holds a block of 16384 rows of x and fills the matching block of the result in four
  chunks of 4096 rows, each by the same computation on its own rows (KerPayload). Row p of the chunk at offset o is row
  o + p of the block, and the parameters are the same for every chunk: so the four stores together leave ONE function of
  the block — at row y and column q the perceptron's entry of row y of the block — whatever the order of the stores.
-/
import proofs.«138202_g2000000962606390_pallasbulk_212_33_alg».proof.Proof.Gen.KernelIdeal.Frame
import proofs.«138202_g2000000962606390_pallasbulk_212_33_alg».proof.Proof.KerPayload
import proofs.«138202_g2000000962606390_pallasbulk_212_33_alg».proof.Proof.MlpSpec
import Idealize.ShloMosaic.Lib.Pipeline.Value

noncomputable section

namespace Cert.Mlp.KerBlock

open Cert.KernelIdeal Cert.KernelIdeal.Gen Idealize.ShloMosaic Idealize.ShloMosaic.ValueIdx Cert.Mlp

/-- What a whole block of the result holds, from the block of x and the parameter arrays. -/
def B (x0 : Vec Ideal S16384x72 .f32) (x1 : Vec Ideal S72x512 .f32) (x2 : Vec Ideal S1x512 .f32)
    (x3 : Vec Ideal S512x128 .f32) (x4 : Vec Ideal S1x128 .f32) : Vec Ideal S16384x18 .f32 := fun y =>
  entry zf (fun k => x0 (ix2 (y 0) k)) (fun k h => x1 (ix2 k h)) (fun h => x2 (ix2 0 h))
    (fun h => x3 (ix2 h (col (y 1)))) (x4 (ix2 0 (col (y 1))))

/-- The block at an index whose coordinates are the numbers r and q. -/
theorem B_at (x0 : Vec Ideal S16384x72 .f32) (x1 : Vec Ideal S72x512 .f32) (x2 : Vec Ideal S1x512 .f32)
    (x3 : Vec Ideal S512x128 .f32) (x4 : Vec Ideal S1x128 .f32) (y : S16384x18.Idx) (r : Fin 16384) (q : Fin 18)
    (h0 : (y 0).val = r.val) (h1 : (y 1).val = q.val) :
    B x0 x1 x2 x3 x4 y = entry zf (fun k => x0 (ix2 r k)) (fun k h => x1 (ix2 k h)) (fun h => x2 (ix2 0 h))
      (fun h => x3 (ix2 h (col q))) (x4 (ix2 0 (col q))) := by
  have e : y = ix2 r q := idx2_ext _ _ h0 h1
  subst e
  rfl

/-- The chunk stored at row offset o is the block's function on rows o … o + 4095. -/
theorem chunk_eq (o : ℕ) (inbx : ∀ a, (![o, 0] : Fin 2 → Nat) a + S4096x72.size a ≤ S16384x72.size a)
    (inbo : ∀ a, (![o, 0] : Fin 2 → Nat) a + S4096x18.size a ≤ S16384x18.size a)
    (x0 : Vec Ideal S16384x72 .f32) (x1 : Vec Ideal S72x512 .f32) (x2 : Vec Ideal S1x512 .f32)
    (x3 : Vec Ideal S512x128 .f32) (x4 : Vec Ideal S1x128 .f32) (p : Fin 4096) (q : Fin 18) :
    k0_pay1 (k0_pay3 (View.ld x1 r0_0) (View.ld x2 r0_1)) (k0_pay4 (View.ld x3 r0_2)) (View.ld x4 r0_3)
        (View.ld x0 (Rect.unit (s := S16384x72) ![o, 0] S4096x72.size inbx)) (ix2 p q)
      = B x0 x1 x2 x3 x4 ((Rect.unit (s := S16384x18) ![o, 0] S4096x18.size inbo).emb (ix2 p q)) := by
  have ho : o + 4096 ≤ 16384 := inbo 0
  have hp : p.val < 4096 := p.isLt
  rw [Cert.Mlp.Ker.pay_apply,
    B_at x0 x1 x2 x3 x4 _ ⟨o + p.val, by omega⟩ q
      (by show o + 1 * p.val = o + p.val; omega) (by show 0 + 1 * q.val = q.val; omega)]
  exact entry_congr _
    (fun k => congrArg x0 (idx2_ext _ _ (by show o + 1 * p.val = o + p.val; omega) (by show 0 + 1 * k.val = k.val; omega)))
    (fun k h => congrArg x1 (idx2_ext _ _ (by show 0 + 1 * k.val = k.val; omega) (by show 0 + 1 * h.val = h.val; omega)))
    (fun h => congrArg x2 (idx2_ext _ _ (by show 0 + 1 * 0 = 0; omega) (by show 0 + 1 * h.val = h.val; omega)))
    (fun h => congrArg x3 (idx2_ext _ _ (by show 0 + 1 * h.val = h.val; omega) (by show 0 + 1 * q.val = q.val; omega)))
    (congrArg x4 (idx2_ext _ _ (by show 0 + 1 * 0 = 0; omega) (by show 0 + 1 * q.val = q.val; omega)))

/-- WHAT THE BODY LEAVES in the result's staging buffer is the block's function of the input blocks. -/
theorem out_eq (x0 : Vec Ideal S16384x72 .f32) (x1 : Vec Ideal S72x512 .f32) (x2 : Vec Ideal S1x512 .f32)
    (x3 : Vec Ideal S512x128 .f32) (x4 : Vec Ideal S1x128 .f32) :
    out0_5 x0 x1 x2 x3 x4 = B x0 x1 x2 x3 x4 := by
  funext y
  unfold out0_5
  refine View.canon_apply_of_pieces (B x0 x1 x2 x3 x4) _ ?_ y (cover0_5 _ _ _ _ y)
  intro pc hpc
  simp only [List.mem_cons, List.not_mem_nil, or_false] at hpc
  rcases hpc with rfl | rfl | rfl | rfl
  · intro x
    obtain ⟨p, q, rfl⟩ : ∃ (p : Fin 4096) (q : Fin 18), x = ix2 p q := ⟨x 0, x 1, eq_ix2 x⟩
    show k0_pay2 (F := Ideal) _ _ _ _ (ix2 p q) = B x0 x1 x2 x3 x4 (r0_11.emb (ix2 p q))
    rw [Cert.Mlp.Ker.pay2_eq]
    exact chunk_eq 12288 inb_S16384x72_S4096x72_12288_0 inb_S16384x18_S4096x18_12288_0 x0 x1 x2 x3 x4 p q
  · intro x
    obtain ⟨p, q, rfl⟩ : ∃ (p : Fin 4096) (q : Fin 18), x = ix2 p q := ⟨x 0, x 1, eq_ix2 x⟩
    exact chunk_eq 8192 inb_S16384x72_S4096x72_8192_0 inb_S16384x18_S4096x18_8192_0 x0 x1 x2 x3 x4 p q
  · intro x
    obtain ⟨p, q, rfl⟩ : ∃ (p : Fin 4096) (q : Fin 18), x = ix2 p q := ⟨x 0, x 1, eq_ix2 x⟩
    show k0_pay6 (F := Ideal) _ _ _ _ _ (ix2 p q) = B x0 x1 x2 x3 x4 (r0_7.emb (ix2 p q))
    rw [Cert.Mlp.Ker.pay6_eq]
    exact chunk_eq 4096 inb_S16384x72_S4096x72_4096_0 inb_S16384x18_S4096x18_4096_0 x0 x1 x2 x3 x4 p q
  · intro x
    obtain ⟨p, q, rfl⟩ : ∃ (p : Fin 4096) (q : Fin 18), x = ix2 p q := ⟨x 0, x 1, eq_ix2 x⟩
    show k0_pay5 (F := Ideal) _ _ _ _ _ (ix2 p q) = B x0 x1 x2 x3 x4 (r0_5.emb (ix2 p q))
    rw [Cert.Mlp.Ker.pay5_eq]
    exact chunk_eq 0 inb_S16384x72_S4096x72_0_0 inb_S16384x18_S4096x18_0_0 x0 x1 x2 x3 x4 p q

end Cert.Mlp.KerBlock

end
-- ==== Proof.KerValue.lean ====
/-
  The kernel's result array.

  The kernel walks the 131072 rows in 8 blocks of 16384; at point t it reads block t of x, the four parameter arrays
  whole, and writes block t of the result. What it writes is the block's function (KerBlock): at row y and column q the
  perceptron's entry of row y of the block, and row y of block t is row 16384·t + y of x. So point t writes block t of
  the one function G of the argument arrays (MlpSpec) — the same G the reference's 32 blocks of 4096 rows fill. The 8
  blocks tile the rows, so after the run the result array is G.
-/
import proofs.«138202_g2000000962606390_pallasbulk_212_33_alg».proof.Proof.Gen.KernelIdeal.Value
import proofs.«138202_g2000000962606390_pallasbulk_212_33_alg».proof.Proof.KerBlock
import proofs.«138202_g2000000962606390_pallasbulk_212_33_alg».proof.Proof.MlpSpec

noncomputable section

namespace Cert.Mlp.KerValue

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The index maps over the 8 points: x and the result move together along the rows, one block per point; every other
    window stays at block zero. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row y of block t of x is row 16384·t + y of x. -/
theorem read_x (c : Dev nD) (t : Fin cfg0.N) (y : Fin 16384) (k : Fin 72) (r : Fin 131072) (hr : r.val = t.val * 16384 + y.val) :
    iblk m c 0 t (ix2 y k) = V m c main_arg0 (ix2 r k) := by
  show V m c main_arg0 (((cfg0.win 0).blk t).view.emb (ix2 y k)) = _
  obtain ⟨-, -, e0, e1, -⟩ := idx_facts t
  refine congrArg (V m c main_arg0) (funext fun a => Fin.ext ?_)
  match a with
  | ⟨0, _⟩ => show win0_0.index t (0 : Fin 2) * 16384 + 1 * y.val = r.val; omega
  | ⟨1, _⟩ => show win0_0.index t (1 : Fin 2) * 72 + 1 * k.val = k.val; omega

/-- The first layer's weights are read whole. -/
theorem read_w1 (c : Dev nD) (t : Fin cfg0.N) (k : Fin 72) (h : Fin 512) :
    iblk m c 1 t (ix2 k h) = V m c main_arg1 (ix2 k h) := by
  show V m c main_arg1 (((cfg0.win 1).blk t).view.emb (ix2 k h)) = _
  obtain ⟨-, -, -, -, e0, e1, -⟩ := idx_facts t
  refine congrArg (V m c main_arg1) (funext fun a => Fin.ext ?_)
  match a with
  | ⟨0, _⟩ => show win0_1.index t (0 : Fin 2) * 72 + 1 * k.val = k.val; omega
  | ⟨1, _⟩ => show win0_1.index t (1 : Fin 2) * 512 + 1 * h.val = h.val; omega

/-- The first layer's bias is read whole. -/
theorem read_b1 (c : Dev nD) (t : Fin cfg0.N) (h : Fin 512) :
    iblk m c 2 t (ix2 0 h) = V m c main_arg2 (ix2 0 h) := by
  show V m c main_arg2 (((cfg0.win 2).blk t).view.emb (ix2 0 h)) = _
  obtain ⟨-, -, -, -, -, -, e0, e1, -⟩ := idx_facts t
  refine congrArg (V m c main_arg2) (funext fun a => Fin.ext ?_)
  match a with
  | ⟨0, _⟩ => show win0_2.index t (0 : Fin 2) * 1 + 1 * 0 = 0; omega
  | ⟨1, _⟩ => show win0_2.index t (1 : Fin 2) * 512 + 1 * h.val = h.val; omega

/-- The second layer's weights are read whole. -/
theorem read_w2 (c : Dev nD) (t : Fin cfg0.N) (h : Fin 512) (a : Fin 128) :
    iblk m c 3 t (ix2 h a) = V m c main_arg3 (ix2 h a) := by
  show V m c main_arg3 (((cfg0.win 3).blk t).view.emb (ix2 h a)) = _
  obtain ⟨-, -, -, -, -, -, -, -, e0, e1, -⟩ := idx_facts t
  refine congrArg (V m c main_arg3) (funext fun d => Fin.ext ?_)
  match d with
  | ⟨0, _⟩ => show win0_3.index t (0 : Fin 2) * 512 + 1 * h.val = h.val; omega
  | ⟨1, _⟩ => show win0_3.index t (1 : Fin 2) * 128 + 1 * a.val = a.val; omega

/-- The second layer's bias is read whole. -/
theorem read_b2 (c : Dev nD) (t : Fin cfg0.N) (a : Fin 128) :
    iblk m c 4 t (ix2 0 a) = V m c main_arg4 (ix2 0 a) := by
  show V m c main_arg4 (((cfg0.win 4).blk t).view.emb (ix2 0 a)) = _
  obtain ⟨-, -, -, -, -, -, -, -, -, -, e0, e1⟩ := idx_facts t
  refine congrArg (V m c main_arg4) (funext fun d => Fin.ext ?_)
  match d with
  | ⟨0, _⟩ => show win0_4.index t (0 : Fin 2) * 1 + 1 * 0 = 0; omega
  | ⟨1, _⟩ => show win0_4.index t (1 : Fin 2) * 128 + 1 * a.val = a.val; omega

/-- WHAT POINT t WRITES BACK is block t of G of the argument arrays. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [Cert.KernelIdeal.Value.flushed5, Cert.Mlp.KerBlock.out_eq]
  funext j
  obtain ⟨y, q, rfl⟩ : ∃ (y : Fin 16384) (q : Fin 18), j = ix2 y q := ⟨j 0, j 1, eq_ix2 j⟩
  obtain ⟨e0, e1, -⟩ := idx_facts t
  have hy : y.val < 16384 := y.isLt
  have ht : t.val < 8 := t.isLt
  show Cert.Mlp.KerBlock.B (iblk m c 0 t) (iblk m c 1 t) (iblk m c 2 t) (iblk m c 3 t) (iblk m c 4 t) (ix2 y q)
    = G (V m c main_arg0) (V m c main_arg1) (V m c main_arg2) (V m c main_arg3) (V m c main_arg4)
        (((cfg0.win 5).blk t).view.emb (ix2 y q))
  rw [Cert.Mlp.KerBlock.B_at _ _ _ _ _ (ix2 y q) y q rfl rfl,
    G_at _ _ _ _ _ (((cfg0.win 5).blk t).view.emb (ix2 y q)) ⟨t.val * 16384 + y.val, by omega⟩ q
      (by show win0_5.index t (0 : Fin 2) * 16384 + 1 * y.val = t.val * 16384 + y.val; omega)
      (by show win0_5.index t (1 : Fin 2) * 18 + 1 * q.val = q.val; omega)]
  exact entry_congr _ (fun k => read_x m c t y k _ rfl) (fun k h => read_w1 m c t k h) (fun h => read_b1 m c t h)
    (fun h => read_w2 m c t h (col q)) (read_b2 m c t (col q))

/-- An index of the result is in point t's block iff each coordinate is in the block's range on its axis. -/
theorem mem_blk (t : Fin cfg0.N) (i : S131072x18.Idx) :
    i ∈ ((cfg0.win 5).blk t).view.set ↔ ∀ a : Fin 2, win0_5.index t a * S16384x18.size a ≤ (i a).val
      ∧ (i a).val < win0_5.index t a * S16384x18.size a + S16384x18.size a := by
  show i ∈ ((View.whole main_v0).slice (win0_5.rect t)).set ↔ _
  rw [View.set_slice_whole, Rect.mem_set_unit]
  exact Iff.rfl

/-- Row r of the result lies in the block of point r / 16384. -/
theorem cover (i : S131072x18.Idx) :
    ∃ t : Fin cfg0.N, (cfg0.win 5).flush t = true ∧ i ∈ ((cfg0.win 5).blk t).view.set := by
  have hi0 : (i 0).val < 131072 := (i 0).isLt
  have hi1 : (i 1).val < 18 := (i 1).isLt
  have hN : cfg0.N = 8 := rfl
  let t : Fin cfg0.N := ⟨(i 0).val / 16384, by rw [hN]; omega⟩
  have htv : t.val = (i 0).val / 16384 := rfl
  obtain ⟨e0, e1, -⟩ := idx_facts t
  refine ⟨t, flush0_5 t, ?_⟩
  rw [mem_blk]
  intro a
  match a with
  | ⟨0, _⟩ =>
    show win0_5.index t (0 : Fin 2) * 16384 ≤ (i 0).val ∧ (i 0).val < win0_5.index t (0 : Fin 2) * 16384 + 16384
    omega
  | ⟨1, _⟩ =>
    show win0_5.index t (1 : Fin 2) * 18 ≤ (i 1).val ∧ (i 1).val < win0_5.index t (1 : Fin 2) * 18 + 18
    omega

/-- THE RESULT ARRAY after the run is G of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The kernel's run: the result array ends at G of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Mlp.KerValue

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.RefPayload.lean ====
/-
  The reference's block, entry by entry.

  The reference's body takes a block of 4096 rows of x and computes, for the whole block at once,
  max (x · w1 + b1, 0) · w2 + b2, of which it keeps the first 18 of the 128 columns. Read at row p and column q of the
  block this is the perceptron's entry (Cert.Mlp.entry) of row p of the block, the first layer whole, and column q of
  the second layer: the two matrix products are plain sums over the contracted axis, the two biases are rows laid along
  the block's rows, and the slice keeps the column number.
-/
import proofs.«138202_g2000000962606390_pallasbulk_212_33_alg».proof.Proof.Gen.ReferenceIdeal.Skeleton
import proofs.«138202_g2000000962606390_pallasbulk_212_33_alg».proof.Proof.Gen.ReferenceIdeal
import proofs.«138202_g2000000962606390_pallasbulk_212_33_alg».proof.Proof.LibMatmulRows
import proofs.«138202_g2000000962606390_pallasbulk_212_33_alg».proof.Proof.MlpSpec
import Idealize.ShloMosaic.Lib.ValueIdx
import Idealize.ShloMosaic.Lib.Pipeline.Value

noncomputable section

namespace Cert.Mlp.Ref

open Idealize.ShloMosaic Idealize.ShloMosaic.ValueIdx Cert.ReferenceIdeal Cert.ReferenceIdeal.Gen Cert.Mlp
open scoped BigOperators

/-- The first product at (p, h): the sum over the 72 inputs. -/
theorem mm1 (l : FVec Ideal S4096x72 .f32) (r : FVec Ideal S72x512 .f32) (p : Fin 4096) (h : Fin 512) :
    matmul dot_S4096x72_S72x512_S4096x512_1_0_0_1_n_n none l r (constant (F := Ideal) S4096x512 .f32 0x00000000#32) (ix2 p h)
      = ∑ k : Fin 72, l (ix2 p k) * r (ix2 k h) :=
  Cert.LibMatmulRows.matmul_rows dot_S4096x72_S72x512_S4096x512_1_0_0_1_n_n rfl rfl
    (fun _ _ => rfl) (fun _ _ => rfl) (fun _ _ => rfl) (fun _ _ => rfl) l r p h

/-- The second product at (p, a): the sum over the 512 hidden units. -/
theorem mm2 (l : FVec Ideal S4096x512 .f32) (r : FVec Ideal S512x128 .f32) (p : Fin 4096) (a : Fin 128) :
    matmul dot_S4096x512_S512x128_S4096x128_1_0_0_1_n_n none l r (constant (F := Ideal) S4096x128 .f32 0x00000000#32) (ix2 p a)
      = ∑ h : Fin 512, l (ix2 p h) * r (ix2 h a) :=
  Cert.LibMatmulRows.matmul_rows dot_S4096x512_S512x128_S4096x128_1_0_0_1_n_n rfl rfl
    (fun _ _ => rfl) (fun _ _ => rfl) (fun _ _ => rfl) (fun _ _ => rfl) l r p a

/-- The first bias laid along the rows, at (p, h). -/
theorem bias1 (b : Vec Ideal S1x512 .f32) (p : Fin 4096) (h : Fin 512) :
    broadcastTo S4096x512 b broadcasts_S1x512_S4096x512 (ix2 p h) = b (ix2 0 h) :=
  broadcastTo_apply b _ (ix2 p h) (ix2 0 h) (fun a => by
    match a with
    | ⟨0, _⟩ => rfl
    | ⟨1, _⟩ => rfl)

/-- The second bias laid along the rows, at (p, a). -/
theorem bias2 (b : Vec Ideal S1x128 .f32) (p : Fin 4096) (a : Fin 128) :
    broadcastTo S4096x128 b broadcasts_S1x128_S4096x128 (ix2 p a) = b (ix2 0 a) :=
  broadcastTo_apply b _ (ix2 p a) (ix2 0 a) (fun d => by
    match d with
    | ⟨0, _⟩ => rfl
    | ⟨1, _⟩ => rfl)

/-- The hidden layer at (p, h). -/
theorem hidden (v0 : FVec Ideal S4096x72 .f32) (v1 : FVec Ideal S72x512 .f32) (v3 : Vec Ideal S1x512 .f32)
    (p : Fin 4096) (h : Fin 512) :
    maximumf (addf (matmul dot_S4096x72_S72x512_S4096x512_1_0_0_1_n_n none v0 v1 (constant (F := Ideal) S4096x512 .f32 0x00000000#32))
        (broadcastTo S4096x512 v3 broadcasts_S1x512_S4096x512)) (broadcast S4096x512 zf) (ix2 p h)
      = max ((∑ k : Fin 72, v0 (ix2 p k) * v1 (ix2 k h)) + v3 (ix2 0 h)) zf := by
  rw [maximumf_apply, addf_apply, broadcast_apply, mm1, bias1]

/-- THE REFERENCE'S PAYLOAD at row p and column q of its block: the perceptron's entry. -/
theorem pay_apply (v0 : Vec Ideal S4096x72 .f32) (v1 : Vec Ideal S72x512 .f32) (v3 : Vec Ideal S1x512 .f32)
    (v8 : Vec Ideal S512x128 .f32) (v10 : Vec Ideal S1x128 .f32) (p : Fin 4096) (q : Fin 18) :
    k0_pay1 v0 v1 v3 v8 v10 (ix2 p q)
      = Cert.Mlp.entry zf (fun k => v0 (ix2 p k)) (fun k h => v1 (ix2 k h)) (fun h => v3 (ix2 0 h))
          (fun h => v8 (ix2 h (col q))) (v10 (ix2 0 (col q))) := by
  unfold k0_pay1
  refine (extractStridedSlice_apply _ _ _ (ix2 p q) (ix2 p (col q)) (fun a => by
    match a with
    | ⟨0, _⟩ => show p.val = 0 + p.val; omega
    | ⟨1, _⟩ => show q.val = 0 + q.val; omega)).trans ?_
  rw [addf_apply, mm2, bias2]
  unfold Cert.Mlp.entry
  refine congrArg (· + v10 (ix2 0 (col q))) (Finset.sum_congr rfl fun h _ => ?_)
  rw [hidden]

end Cert.Mlp.Ref

end
-- ==== Proof.RefValue.lean ====
/-
  The reference's result array.

  The reference walks the 131072 rows in 32 blocks of 4096; at point t it reads block t of x, the four parameter arrays
  whole, and writes block t of the result. What it writes is the perceptron's entry of each row of the block
  (RefPayload), and row p of block t is row 4096·t + p of x: so point t writes block t of the one function G of the
  argument arrays (MlpSpec). The 32 blocks tile the rows, so after the run the result array is G.
-/
import proofs.«138202_g2000000962606390_pallasbulk_212_33_alg».proof.Proof.Gen.ReferenceIdeal.Value
import proofs.«138202_g2000000962606390_pallasbulk_212_33_alg».proof.Proof.RefPayload
import proofs.«138202_g2000000962606390_pallasbulk_212_33_alg».proof.Proof.MlpSpec

noncomputable section

namespace Cert.Mlp.RefValue

open Cert.ReferenceIdeal Cert.ReferenceIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 points: x and the result move together along the rows, one block per point; every other
    window stays at block zero. -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of block t of x is row 4096·t + p of x. -/
theorem read_x (c : Dev nD) (t : Fin cfg0.N) (p : Fin 4096) (k : Fin 72) (r : Fin 131072) (hr : r.val = t.val * 4096 + p.val) :
    iblk m c 0 t (ix2 p k) = V m c main_arg0 (ix2 r k) := by
  show V m c main_arg0 (((cfg0.win 0).blk t).view.emb (ix2 p k)) = _
  obtain ⟨-, -, e0, e1, -⟩ := idx_facts t
  refine congrArg (V m c main_arg0) (funext fun a => Fin.ext ?_)
  match a with
  | ⟨0, _⟩ => show win0_0.index t (0 : Fin 2) * 4096 + 1 * p.val = r.val; omega
  | ⟨1, _⟩ => show win0_0.index t (1 : Fin 2) * 72 + 1 * k.val = k.val; omega

/-- The first layer's weights are read whole. -/
theorem read_w1 (c : Dev nD) (t : Fin cfg0.N) (k : Fin 72) (h : Fin 512) :
    iblk m c 1 t (ix2 k h) = V m c main_arg1 (ix2 k h) := by
  show V m c main_arg1 (((cfg0.win 1).blk t).view.emb (ix2 k h)) = _
  obtain ⟨-, -, -, -, e0, e1, -⟩ := idx_facts t
  refine congrArg (V m c main_arg1) (funext fun a => Fin.ext ?_)
  match a with
  | ⟨0, _⟩ => show win0_1.index t (0 : Fin 2) * 72 + 1 * k.val = k.val; omega
  | ⟨1, _⟩ => show win0_1.index t (1 : Fin 2) * 512 + 1 * h.val = h.val; omega

/-- The first layer's bias is read whole. -/
theorem read_b1 (c : Dev nD) (t : Fin cfg0.N) (h : Fin 512) :
    iblk m c 2 t (ix2 0 h) = V m c main_arg2 (ix2 0 h) := by
  show V m c main_arg2 (((cfg0.win 2).blk t).view.emb (ix2 0 h)) = _
  obtain ⟨-, -, -, -, -, -, e0, e1, -⟩ := idx_facts t
  refine congrArg (V m c main_arg2) (funext fun a => Fin.ext ?_)
  match a with
  | ⟨0, _⟩ => show win0_2.index t (0 : Fin 2) * 1 + 1 * 0 = 0; omega
  | ⟨1, _⟩ => show win0_2.index t (1 : Fin 2) * 512 + 1 * h.val = h.val; omega

/-- The second layer's weights are read whole. -/
theorem read_w2 (c : Dev nD) (t : Fin cfg0.N) (h : Fin 512) (a : Fin 128) :
    iblk m c 3 t (ix2 h a) = V m c main_arg3 (ix2 h a) := by
  show V m c main_arg3 (((cfg0.win 3).blk t).view.emb (ix2 h a)) = _
  obtain ⟨-, -, -, -, -, -, -, -, e0, e1, -⟩ := idx_facts t
  refine congrArg (V m c main_arg3) (funext fun d => Fin.ext ?_)
  match d with
  | ⟨0, _⟩ => show win0_3.index t (0 : Fin 2) * 512 + 1 * h.val = h.val; omega
  | ⟨1, _⟩ => show win0_3.index t (1 : Fin 2) * 128 + 1 * a.val = a.val; omega

/-- The second layer's bias is read whole. -/
theorem read_b2 (c : Dev nD) (t : Fin cfg0.N) (a : Fin 128) :
    iblk m c 4 t (ix2 0 a) = V m c main_arg4 (ix2 0 a) := by
  show V m c main_arg4 (((cfg0.win 4).blk t).view.emb (ix2 0 a)) = _
  obtain ⟨-, -, -, -, -, -, -, -, -, -, e0, e1⟩ := idx_facts t
  refine congrArg (V m c main_arg4) (funext fun d => Fin.ext ?_)
  match d with
  | ⟨0, _⟩ => show win0_4.index t (0 : Fin 2) * 1 + 1 * 0 = 0; omega
  | ⟨1, _⟩ => show win0_4.index t (1 : Fin 2) * 128 + 1 * a.val = a.val; omega

/-- WHAT POINT t WRITES BACK is block t of G of the argument arrays. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [Cert.ReferenceIdeal.Value.flushed5]
  unfold out0_5
  rw [View.canon_unit_zero hz]
  simp only [View.ld_unit_zero (S := S4096x72) hz, View.ld_unit_zero (S := S72x512) hz, View.ld_unit_zero (S := S1x512) hz,
    View.ld_unit_zero (S := S512x128) hz, View.ld_unit_zero (S := S1x128) hz]
  funext j
  obtain ⟨p, q, rfl⟩ : ∃ (p : Fin 4096) (q : Fin 18), j = ix2 p q := ⟨j 0, j 1, eq_ix2 j⟩
  obtain ⟨e0, e1, -⟩ := idx_facts t
  have hp : p.val < 4096 := p.isLt
  have ht : t.val < 32 := t.isLt
  show k0_pay1 (iblk m c 0 t) (iblk m c 1 t) (iblk m c 2 t) (iblk m c 3 t) (iblk m c 4 t) (ix2 p q)
    = G (V m c main_arg0) (V m c main_arg1) (V m c main_arg2) (V m c main_arg3) (V m c main_arg4)
        (((cfg0.win 5).blk t).view.emb (ix2 p q))
  rw [Cert.Mlp.Ref.pay_apply,
    G_at _ _ _ _ _ (((cfg0.win 5).blk t).view.emb (ix2 p q)) ⟨t.val * 4096 + p.val, by omega⟩ q
      (by show win0_5.index t (0 : Fin 2) * 4096 + 1 * p.val = t.val * 4096 + p.val; omega)
      (by show win0_5.index t (1 : Fin 2) * 18 + 1 * q.val = q.val; omega)]
  exact entry_congr _ (fun k => read_x m c t p k _ rfl) (fun k h => read_w1 m c t k h) (fun h => read_b1 m c t h)
    (fun h => read_w2 m c t h (col q)) (read_b2 m c t (col q))

/-- An index of the result is in point t's block iff each coordinate is in the block's range on its axis. -/
theorem mem_blk (t : Fin cfg0.N) (i : S131072x18.Idx) :
    i ∈ ((cfg0.win 5).blk t).view.set ↔ ∀ a : Fin 2, win0_5.index t a * S4096x18.size a ≤ (i a).val
      ∧ (i a).val < win0_5.index t a * S4096x18.size a + S4096x18.size a := by
  show i ∈ ((View.whole main_v0).slice (win0_5.rect t)).set ↔ _
  rw [View.set_slice_whole, Rect.mem_set_unit]
  exact Iff.rfl

/-- Row r of the result lies in the block of point r / 4096. -/
theorem cover (i : S131072x18.Idx) :
    ∃ t : Fin cfg0.N, (cfg0.win 5).flush t = true ∧ i ∈ ((cfg0.win 5).blk t).view.set := by
  have hi0 : (i 0).val < 131072 := (i 0).isLt
  have hi1 : (i 1).val < 18 := (i 1).isLt
  have hN : cfg0.N = 32 := rfl
  let t : Fin cfg0.N := ⟨(i 0).val / 4096, by rw [hN]; omega⟩
  have htv : t.val = (i 0).val / 4096 := rfl
  obtain ⟨e0, e1, -⟩ := idx_facts t
  refine ⟨t, flush0_5 t, ?_⟩
  rw [mem_blk]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 18 ≤ (i 1).val ∧ (i 1).val < win0_5.index t (1 : Fin 2) * 18 + 18
    omega

/-- THE RESULT ARRAY after the run is G of the argument arrays. -/
theorem final (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The reference's run: the result array ends at G of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.ReferenceIdeal.Value.run_blocks m ρ)

end Cert.Mlp.RefValue

end
-- ==== Proof.lean ====
/-
  A two-layer perceptron over 131072 rows, max (x · w1 + b1, 0) · w2 + b2 kept to its 18 real columns, computed by two
  tilings of the rows.

  The reference walks the rows in 32 blocks of 4096 and computes each block as written. The kernel walks them in 8 blocks
  of 16384, each in four chunks of 4096, and computes every chunk transposed: the first bias is folded into the first
  product through an appended column of ones, the operands of that product pass through a narrower float format, and the
  second product uses the first 32 columns of w2. On the extended reals the changes of format are the identity, the
  appended coordinate contributes b1 · 1 = b1, and the remaining differences are the order of the factors in each
  product and the splitting of one finite sum at its last term; none of these needs the inputs to be finite. Row r of
  the result depends on row r of x alone, so both tilings fill the one array G of Proof/MlpSpec.lean:
  Proof/KerValue.lean proves it for the kernel, Proof/RefValue.lean for the reference, and the two runs meet at G.
  The three frames are the generated ones, and the idealization rewrote nothing.
-/
import proofs.«138202_g2000000962606390_pallasbulk_212_33_alg».proof.Defs
import proofs.«138202_g2000000962606390_pallasbulk_212_33_alg».proof.Proof.Gen.Kernel
import proofs.«138202_g2000000962606390_pallasbulk_212_33_alg».proof.Proof.Gen.Kernel.Frame
import proofs.«138202_g2000000962606390_pallasbulk_212_33_alg».proof.Proof.Gen.KernelIdeal
import proofs.«138202_g2000000962606390_pallasbulk_212_33_alg».proof.Proof.Gen.KernelIdeal.Frame
import proofs.«138202_g2000000962606390_pallasbulk_212_33_alg».proof.Proof.Gen.KernelIdeal.Value
import proofs.«138202_g2000000962606390_pallasbulk_212_33_alg».proof.Proof.Gen.ReferenceIdeal
import proofs.«138202_g2000000962606390_pallasbulk_212_33_alg».proof.Proof.Gen.ReferenceIdeal.Frame
import proofs.«138202_g2000000962606390_pallasbulk_212_33_alg».proof.Proof.Gen.ReferenceIdeal.Value
import proofs.«138202_g2000000962606390_pallasbulk_212_33_alg».proof.Proof.Gen.Pre_finite_inputs
import proofs.«138202_g2000000962606390_pallasbulk_212_33_alg».proof.Proof.KerValue
import proofs.«138202_g2000000962606390_pallasbulk_212_33_alg».proof.Proof.RefValue

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals … -/
theorem frame_ki : Cert.frame_KernelIdeal := fun m ρ _ => Cert.KernelIdeal.Gen.frame m ρ

/-- … and the reference. -/
theorem frame_ri : Cert.frame_ReferenceIdeal := fun m ρ _ => Cert.ReferenceIdeal.Gen.frame m ρ

/-- The idealization rewrote no operation. -/
theorem preserves : Cert.preserves_Kernel_KernelIdeal := trivial

/-- From memories that agree on the five arguments both programs end with the result array at G of those arguments. -/
theorem algebraic : Cert.algebraic_KernelIdeal_ReferenceIdeal := by
  intro m ρ m' ρ' _ hagree
  refine ⟨_, Cert.Mlp.KerValue.run m ρ, ?_⟩
  refine (θ_run Cert.ReferenceIdeal.defs _ _).mono (fun _ h c => ⟨(h c).1.trans ?_, (h c).2⟩)
    (Cert.Mlp.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
